-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1x128x128 : Shape := ⟨4, ![128, 1, 128, 128]⟩
abbrev S128x8x128x128 : Shape := ⟨4, ![128, 8, 128, 128]⟩
abbrev S_ : Shape := ⟨0, ![]⟩

class Facts : Prop where
  bcast_S_S128x1x128x128 : S_.BroadcastsInDim S128x1x128x128 (![] : Fin 0 → Fin S128x1x128x128.rank)
  reducesTo_S128x1x128x128_S_d0_1_2_3 : S128x1x128x128.ReducesTo [0, 1, 2, 3] S_
  h_S_ : 0 < S_.numel
  bcast_S_S128x8x128x128 : S_.BroadcastsInDim S128x8x128x128 (![] : Fin 0 → Fin S128x8x128x128.rank)
  reducesTo_S128x8x128x128_S_d0_1_2_3 : S128x8x128x128.ReducesTo [0, 1, 2, 3] S_

variable [Facts]

def fn_part1 {F : FTy → Type} [FloatOps F] (main_arg1 : FVec F S128x1x128x128 .f32) (main_v13 : IVec S_ 1) (main_v16 : IVec S128x8x128x128 1) : IVec S_ 1 :=
  let main_c_5 : IVec S_ 1 := constantI S_ 1 1#1
  let main_v17 : IVec S_ 1 := (fun x v => Host.reduce IntOp.andi x v reducesTo_S128x8x128x128_S_d0_1_2_3 h_S_) main_v16 main_c_5
  let main_v18 : IVec S_ 1 := andi main_v13 main_v17
  let main_cst_6 : FVec F S_ .f32 := constant S_ .f32 0x00000000#32
  let main_v19 : FVec F S128x1x128x128 .f32 := broadcastInDim S128x1x128x128 ![] bcast_S_S128x1x128x128 main_cst_6
  let main_v20 : IVec S128x1x128x128 1 := cmpf .ogt main_arg1 main_v19
  let main_c_7 : IVec S_ 1 := constantI S_ 1 1#1
  let main_v21 : IVec S_ 1 := (fun x v => Host.reduce IntOp.andi x v reducesTo_S128x1x128x128_S_d0_1_2_3 h_S_) main_v20 main_c_7
  let main_v22 : IVec S_ 1 := andi main_v18 main_v21
  let main_cst_8 : FVec F S_ .f32 := constant S_ .f32 0x3F800000#32
  let main_v23 : FVec F S128x1x128x128 .f32 := broadcastInDim S128x1x128x128 ![] bcast_S_S128x1x128x128 main_cst_8
  let main_v24 : IVec S128x1x128x128 1 := cmpf .olt main_arg1 main_v23
  let main_c_9 : IVec S_ 1 := constantI S_ 1 1#1
  let main_v25 : IVec S_ 1 := (fun x v => Host.reduce IntOp.andi x v reducesTo_S128x1x128x128_S_d0_1_2_3 h_S_) main_v24 main_c_9
  let main_v26 : IVec S_ 1 := andi main_v22 main_v25
  main_v26

def fn {F : FTy → Type} [FloatOps F] (main_arg0 : FVec F S128x1x128x128 .f32) (main_arg1 : FVec F S128x1x128x128 .f32) (main_arg2 : FVec F S128x8x128x128 .f32) (main_arg3 : FVec F S128x8x128x128 .f32) : IVec S_ 1 :=
  let main_v0 : FVec F S128x1x128x128 .f32 := Host.absf main_arg0
  let main_cst : FVec F S_ .f32 := constant S_ .f32 0x7F800000#32
  let main_v1 : FVec F S128x1x128x128 .f32 := broadcastInDim S128x1x128x128 ![] bcast_S_S128x1x128x128 main_cst
  let main_v2 : IVec S128x1x128x128 1 := cmpf .olt main_v0 main_v1
  let main_c : IVec S_ 1 := constantI S_ 1 1#1
  let main_v3 : IVec S_ 1 := (fun x v => Host.reduce IntOp.andi x v reducesTo_S128x1x128x128_S_d0_1_2_3 h_S_) main_v2 main_c
  let main_v4 : FVec F S128x1x128x128 .f32 := Host.absf main_arg1
  let main_cst_0 : FVec F S_ .f32 := constant S_ .f32 0x7F800000#32
  let main_v5 : FVec F S128x1x128x128 .f32 := broadcastInDim S128x1x128x128 ![] bcast_S_S128x1x128x128 main_cst_0
  let main_v6 : IVec S128x1x128x128 1 := cmpf .olt main_v4 main_v5
  let main_c_1 : IVec S_ 1 := constantI S_ 1 1#1
  let main_v7 : IVec S_ 1 := (fun x v => Host.reduce IntOp.andi x v reducesTo_S128x1x128x128_S_d0_1_2_3 h_S_) main_v6 main_c_1
  let main_v8 : IVec S_ 1 := andi main_v3 main_v7
  let main_v9 : FVec F S128x8x128x128 .f32 := Host.absf main_arg2
  let main_cst_2 : FVec F S_ .f32 := constant S_ .f32 0x7F800000#32
  let main_v10 : FVec F S128x8x128x128 .f32 := broadcastInDim S128x8x128x128 ![] bcast_S_S128x8x128x128 main_cst_2
  let main_v11 : IVec S128x8x128x128 1 := cmpf .olt main_v9 main_v10
  let main_c_3 : IVec S_ 1 := constantI S_ 1 1#1
  let main_v12 : IVec S_ 1 := (fun x v => Host.reduce IntOp.andi x v reducesTo_S128x8x128x128_S_d0_1_2_3 h_S_) main_v11 main_c_3
  let main_v13 : IVec S_ 1 := andi main_v8 main_v12
  let main_v14 : FVec F S128x8x128x128 .f32 := Host.absf main_arg3
  let main_cst_4 : FVec F S_ .f32 := constant S_ .f32 0x7F800000#32
  let main_v15 : FVec F S128x8x128x128 .f32 := broadcastInDim S128x8x128x128 ![] bcast_S_S128x8x128x128 main_cst_4
  let main_v16 : IVec S128x8x128x128 1 := cmpf .olt main_v14 main_v15
  fn_part1 (F := F) main_arg1 main_v13 main_v16
-- ==== Kernel.lean ====
abbrev S128x1x128x128 : Shape := ⟨4, ![128, 1, 128, 128]⟩
abbrev S128x8x128x128 : Shape := ⟨4, ![128, 8, 128, 128]⟩
abbrev S2x4x128 : Shape := ⟨3, ![2, 4, 128]⟩
abbrev S8x1x128x128 : Shape := ⟨4, ![8, 1, 128, 128]⟩
abbrev S8x8x128x128 : Shape := ⟨4, ![8, 8, 128, 128]⟩
abbrev S1x4x128 : Shape := ⟨3, ![1, 4, 128]⟩
abbrev S8x1x128 : Shape := ⟨3, ![8, 1, 128]⟩
abbrev S8x1x1x128 : Shape := ⟨4, ![8, 1, 1, 128]⟩
abbrev S1x1x128 : Shape := ⟨3, ![1, 1, 128]⟩
abbrev S1x1x1x128 : Shape := ⟨4, ![1, 1, 1, 128]⟩
abbrev S8x8x128 : Shape := ⟨3, ![8, 8, 128]⟩
abbrev S8x8x1x128 : Shape := ⟨4, ![8, 8, 1, 128]⟩
abbrev S_ : Shape := ⟨0, ![]⟩
abbrev S4 : Shape := ⟨1, ![4]⟩
abbrev S1 : Shape := ⟨1, ![1]⟩

abbrev nBuf : Space → Nat
  | .hbm => 34
  | .vmem => 10
  | .smem => 0
  | _ => 0

abbrev bufTy : (tb : Table) → Fin (tcTables nBuf tb) → BufTy
  | .hbm, ⟨0, _⟩ => ⟨S128x1x128x128, .f32⟩
  | .hbm, ⟨1, _⟩ => ⟨S128x1x128x128, .f32⟩
  | .hbm, ⟨2, _⟩ => ⟨S128x8x128x128, .f32⟩
  | .hbm, ⟨3, _⟩ => ⟨S128x8x128x128, .f32⟩
  | .hbm, ⟨4, _⟩ => ⟨S2x4x128, .f32⟩
  | .hbm, ⟨5, _⟩ => ⟨S_, .f32⟩
  | .hbm, ⟨6, _⟩ => ⟨S4, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S_, .f32⟩
  | .hbm, ⟨13, _⟩ => ⟨S1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S8x1x128x128, .f32⟩
  | .local _ .vmem, ⟨1, _⟩ => ⟨S8x1x128x128, .f32⟩
  | .local _ .vmem, ⟨2, _⟩ => ⟨S8x1x128x128, .f32⟩
  | .local _ .vmem, ⟨3, _⟩ => ⟨S8x1x128x128, .f32⟩
  | .local _ .vmem, ⟨4, _⟩ => ⟨S8x8x128x128, .f32⟩
  | .local _ .vmem, ⟨5, _⟩ => ⟨S8x8x128x128, .f32⟩
  | .local _ .vmem, ⟨6, _⟩ => ⟨S8x8x128x128, .f32⟩
  | .local _ .vmem, ⟨7, _⟩ => ⟨S8x8x128x128, .f32⟩
  | .local _ .vmem, ⟨8, _⟩ => ⟨S1x4x128, .f32⟩
  | .local _ .vmem, ⟨9, _⟩ => ⟨S1x4x128, .f32⟩
  | _, _ => ⟨S128x1x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x4x128_S1x4x128_0_0_0 : ∀ a, (![0, 0, 0] : Fin 3 → Nat) a + S1x4x128.size a ≤ S1x4x128.size a
  h_S1x4x128 : 0 < S1x4x128.numel
  inb_S8x1x128x128_S8x1x128x128_0_0_0_0 : ∀ a, (![0, 0, 0, 0] : Fin 4 → Nat) a + S8x1x128x128.size a ≤ S8x1x128x128.size a
  h_S8x1x128x128 : 0 < S8x1x128x128.numel
  reduces_S8x1x128x128_S8x1x128 : S8x1x128x128.Reduces [2] S8x1x128
  shapeCasts_S8x1x128_S8x1x1x128 : S8x1x128.ShapeCasts S8x1x1x128
  reduces_S8x1x1x128_S8x1x128 : S8x1x1x128.Reduces [1] S8x1x128
  reduces_S8x1x1x128_S1x1x128 : S8x1x1x128.Reduces [0] S1x1x128
  shapeCasts_S1x1x128_S1x1x1x128 : S1x1x128.ShapeCasts S1x1x1x128
  inb_S8x8x128x128_S8x8x128x128_0_0_0_0 : ∀ a, (![0, 0, 0, 0] : Fin 4 → Nat) a + S8x8x128x128.size a ≤ S8x8x128x128.size a
  h_S8x8x128x128 : 0 < S8x8x128x128.numel
  reduces_S8x8x128x128_S8x8x128 : S8x8x128x128.Reduces [2] S8x8x128
  shapeCasts_S8x8x128_S8x8x1x128 : S8x8x128.ShapeCasts S8x8x1x128
  reduces_S8x8x1x128_S8x1x128 : S8x8x1x128.Reduces [1] S8x1x128
  shapeCasts_S1x1x1x128_S1x1x128 : S1x1x1x128.ShapeCasts S1x1x128
  concatenates_S1x1x128_S1x1x128_S1x1x128_S1x1x128_S1x4x128_d1 : Shape.Concatenates [S1x1x128, S1x1x128, S1x1x128, S1x1x128] S1x4x128 1
  shapeCasts_S1x4x128_S1x4x128 : S1x4x128.ShapeCasts S1x4x128
  reducesTo_S2x4x128_S4_d0_2 : S2x4x128.ReducesTo [0, 2] S4
  h_S_ : 0 < S_.numel
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1x128x128.size a ≤ S128x1x128x128.size a
  hwx0_0 : ∀ i : grid0.Coords, EltTy.bits .f32 = 32 ∨ (Rect.block (s := S128x1x128x128) S8x1x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x128x128.size a ≤ S128x1x128x128.size a
  hwx0_1 : ∀ i : grid0.Coords, EltTy.bits .f32 = 32 ∨ (Rect.block (s := S128x1x128x128) S8x1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x8x128x128.size a ≤ S128x8x128x128.size a
  hwx0_2 : ∀ i : grid0.Coords, EltTy.bits .f32 = 32 ∨ (Rect.block (s := S128x8x128x128) S8x8x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x8x128x128.size a ≤ S128x8x128x128.size a
  hwx0_3 : ∀ i : grid0.Coords, EltTy.bits .f32 = 32 ∨ (Rect.block (s := S128x8x128x128) S8x8x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x128.size a ≤ S2x4x128.size a
  hwx0_4 : ∀ i : grid0.Coords, EltTy.bits .f32 = 32 ∨ (Rect.block (s := S2x4x128) S1x4x128.size (cc0_transform_4 i) (hinb0_4 i)).WholeWords (EltTy.packing .f32)

variable [Facts₀]

abbrev win0_0 : Pipeline.Window sig grid0 :=
  Pipeline.Window.ofSpec (Memref.whole main_arg0) S8x1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x8x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x8x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x4x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x1x128x128 : Shape := ⟨4, ![128, 1, 128, 128]⟩
abbrev S128x8x128x128 : Shape := ⟨4, ![128, 8, 128, 128]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S128x1x128x128, .f32⟩
  | .hbm, ⟨1, _⟩ => ⟨S128x1x128x128, .f32⟩
  | .hbm, ⟨2, _⟩ => ⟨S128x8x128x128, .f32⟩
  | .hbm, ⟨3, _⟩ => ⟨S128x8x128x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S128x1x128x128, .f32⟩
  | .hbm, ⟨12, _⟩ => ⟨S128x1x128x128, .f32⟩
  | .hbm, ⟨13, _⟩ => ⟨S128x1x128x128, .f32⟩
  | .hbm, ⟨14, _⟩ => ⟨S128x1x128x128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S128x1x128x128, .f32⟩
  | .hbm, ⟨20, _⟩ => ⟨S128x1x128x128, .f32⟩
  | .hbm, ⟨21, _⟩ => ⟨S128x1x128x128, .f32⟩
  | .hbm, ⟨22, _⟩ => ⟨S128x1x128x128, .f32⟩
  | .hbm, ⟨23, _⟩ => ⟨S_, .f32⟩
  | .hbm, ⟨24, _⟩ => ⟨S128x1x128x128, .f32⟩
  | .hbm, ⟨25, _⟩ => ⟨S128x1x128x128, .f32⟩
  | .hbm, ⟨26, _⟩ => ⟨S128x1x128x128, .f32⟩
  | .hbm, ⟨27, _⟩ => ⟨S128x1x128x128, .f32⟩
  | .hbm, ⟨28, _⟩ => ⟨S128x1x128x128, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S128x8x128x128, .f32⟩
  | .hbm, ⟨34, _⟩ => ⟨S128x8x128x128, .f32⟩
  | .hbm, ⟨35, _⟩ => ⟨S_, .f32⟩
  | .hbm, ⟨36, _⟩ => ⟨S128x8x128x128, .f32⟩
  | .hbm, ⟨37, _⟩ => ⟨S128x8x128x128, .i1⟩
  | .hbm, ⟨38, _⟩ => ⟨S_, .f32⟩
  | .hbm, ⟨39, _⟩ => ⟨S128x8x128x128, .f32⟩
  | .hbm, ⟨40, _⟩ => ⟨S128x8x128x128, .f32⟩
  | .hbm, ⟨41, _⟩ => ⟨S128x8x128x128, .f32⟩
  | .hbm, ⟨42, _⟩ => ⟨S_, .f32⟩
  | .hbm, ⟨43, _⟩ => ⟨S128x8x128x128, .f32⟩
  | .hbm, ⟨44, _⟩ => ⟨S128x8x128x128, .f32⟩
  | .hbm, ⟨45, _⟩ => ⟨S128x8x128x128, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S128x1x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_10 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_cst_12 : Ref sig .tc := ⟨.hbm, 50, rfl⟩
abbrev main_v33 : Ref sig .tc := ⟨.hbm, 51, rfl⟩
abbrev main_cst_13 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]

class Facts₀ : Prop where
  reducesTo_S128x1x128x128_S_d0_1_2_3 : S128x1x128x128.ReducesTo [0, 1, 2, 3] S_
  h_S_ : 0 < S_.numel
  bcast_S_S128x1x128x128 : S_.BroadcastsInDim S128x1x128x128 (![] : Fin 0 → Fin S128x1x128x128.rank)
  bcast_S_S128x8x128x128 : S_.BroadcastsInDim S128x8x128x128 (![] : Fin 0 → Fin S128x8x128x128.rank)
  reducesTo_S128x8x128x128_S_d0_1_2_3 : S128x8x128x128.ReducesTo [0, 1, 2, 3] S_

variable [Facts₀]

class Facts : Prop extends Facts₀ where

variable [Facts]
-- ==== Proof.KernelBody.lean ====
import proofs.«104741_j61151744360901_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- One grid point's update of the accumulator block: the old block plus the four rows of lane partial sums
    (the true scores, true score times log of the predicted score, (1 - true) times log1p of minus the predicted
    score, the smoothed L1 of the geometry difference), each summed over the batch tile, the channels and the rows. -/
def step (x0 x1 : Vec F S8x1x128x128 .f32) (x2 x3 : Vec F S8x8x128x128 .f32) (xo : Vec F S1x4x128 .f32) : Vec F S1x4x128 .f32 :=
  k0_pay1 (k0_pay3 x0) (k0_pay4 x0 x1) (k0_pay5 x0 x1) x2 x3 xo

/-- At a point that is not the first of its partition the body leaves the update of what the block held. -/
theorem out_B (c : Dev nD) (i : grid0.Coords) (a2 : Memref sig .tc .vmem S8x1x128x128 .f32) (h2 : a2.IsWhole) (a3 : Memref sig .tc .vmem S8x1x128x128 .f32) (h3 : a3.IsWhole) (a4 : Memref sig .tc .vmem S8x8x128x128 .f32) (h4 : a4.IsWhole) (a5 : Memref sig .tc .vmem S8x8x128x128 .f32) (h5 : a5.IsWhole) (a6 : Memref sig .tc .vmem S1x4x128 .f32) (h6 : a6.IsWhole) (hc : ¬cond0_0 i)
    (x0 x1 : Vec F S8x1x128x128 .f32) (x2 x3 : Vec F S8x8x128x128 .f32) (xo : Vec F S1x4x128 .f32) :
    out0_B_4 c i a2 h2 a3 h3 a4 h4 a5 h5 a6 h6 hc x0 x1 x2 x3 xo = step x0 x1 x2 x3 xo := by
  unfold out0_B_4
  rw [View.read_writes_eq_canon _ _ _ (cover0_B_4 c i a2 h2 a3 h3 a4 h4 a5 h5 a6 h6 hc x0 x1 x2 x3 xo)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S8x1x128x128) hz4, View.ld_unit_zero (S := S8x8x128x128) hz4, View.ld_unit_zero (S := S1x4x128) hz3]
  rfl

/-- At the first point of a partition the body first stores the zero block, so it leaves the update of zero. -/
theorem out_A (c : Dev nD) (i : grid0.Coords) (a2 : Memref sig .tc .vmem S8x1x128x128 .f32) (h2 : a2.IsWhole) (a3 : Memref sig .tc .vmem S8x1x128x128 .f32) (h3 : a3.IsWhole) (a4 : Memref sig .tc .vmem S8x8x128x128 .f32) (h4 : a4.IsWhole) (a5 : Memref sig .tc .vmem S8x8x128x128 .f32) (h5 : a5.IsWhole) (a6 : Memref sig .tc .vmem S1x4x128 .f32) (h6 : a6.IsWhole) (hc : cond0_0 i)
    (x0 x1 : Vec F S8x1x128x128 .f32) (x2 x3 : Vec F S8x8x128x128 .f32) :
    out0_A_4 c i a2 h2 a3 h3 a4 h4 a5 h5 a6 h6 hc x0 x1 x2 x3 = step x0 x1 x2 x3 (k0_pay2 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S1x4x128) hz3, View.readCov_unit_zero (S := S1x4x128) _ hz3]
  simp only [View.readAt_eq_ld, h2.read_unread, h3.read_unread, h4.read_unread, h5.read_unread,
    View.ld_unit_zero (S := S8x1x128x128) hz4, View.ld_unit_zero (S := S8x8x128x128) hz4, View.ld_unit_zero (S := S1x4x128) hz3]
  rfl

end Cert.KernelIdeal.KValue

end
-- ==== Proof.KernelAcc.lean ====
import proofs.«104741_j61151744360901_2_alg».proof.Proof.KernelBody
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.KValue

open Cert.KernelIdeal Cert.KernelIdeal.Gen

variable (m : (ℓ : Loc nD τ sig) → Buf (Elt Ideal) ℓ) (ρ : Dev nD → PrngReg)

/-- The four rows of lane partial sums one point adds to the accumulator block. -/
def rows (x0 x1 : Vec Ideal S8x1x128x128 .f32) (x2 x3 : Vec Ideal S8x8x128x128 .f32) : S1x4x128.Idx → EReal :=
  fun j => step (F := Ideal) x0 x1 x2 x3 (fun _ => (0 : EReal)) j

/-- The update adds the point's rows to the old block, entry by entry. -/
theorem step_apply (x0 x1 : Vec Ideal S8x1x128x128 .f32) (x2 x3 : Vec Ideal S8x8x128x128 .f32) (xo : Vec Ideal S1x4x128 .f32)
    (j : S1x4x128.Idx) : step (F := Ideal) x0 x1 x2 x3 xo j = xo j + rows x0 x1 x2 x3 j := by
  unfold rows step k0_pay1
  simp only [addf_apply, shapeCast_self, zero_add]

/-- Point k's rows, of the blocks the windows stage at it (zero past the grid). -/
def contrib (c : Dev nD) (k : ℕ) : S1x4x128.Idx → EReal :=
  if h : k < cfg0.N then rows (iblk m c 0 ⟨k, h⟩) (iblk m c 1 ⟨k, h⟩) (iblk m c 2 ⟨k, h⟩) (iblk m c 3 ⟨k, h⟩) else fun _ => 0

/-- The accumulator after point n: the rows of the points of n's partition up to n (the block is reset at the
    partition's first point, n - n % 8). -/
def accSum (c : Dev nD) (n : ℕ) : S1x4x128.Idx → EReal :=
  fun j => ∑ i ∈ Finset.range (n % 8 + 1), contrib m c (n - n % 8 + i) j

theorem zero_block (j : S1x4x128.Idx) : k0_pay2 (F := Ideal) j = 0 := by
  show Ideal.ofBits .f32 0x00000000#32 = 0
  exact Ideal.ofBits_zero_f32

/-- What the output's staging buffer holds after point n is that partial sum: by induction on the point. -/
theorem outsAt_eq (c : Dev nD) : ∀ (n : ℕ) (h : n < cfg0.N), outsAt0 m c n h = accSum m c n
  | 0, h => by
    refine (outsAt0_A m c ⟨0, h⟩ rfl).trans ?_
    rw [out_A]
    funext j
    rw [step_apply, zero_block, zero_add]
    unfold accSum
    simp only [Nat.zero_mod, zero_add, Finset.sum_range_one, Nat.sub_zero, add_zero]
    rw [contrib, dif_pos h]
  | n + 1, h => by
    by_cases h0 : (n + 1) % 8 = 0
    · refine (outsAt0_A m c ⟨n + 1, h⟩ h0).trans ?_
      rw [out_A]
      funext j
      rw [step_apply, zero_block, zero_add]
      unfold accSum
      rw [h0]
      simp only [zero_add, Finset.sum_range_one, Nat.sub_zero, add_zero]
      rw [contrib, dif_pos h]
    · rw [outsAt0_B m c ⟨n + 1, h⟩ h0, out_B]
      funext j
      rw [step_apply]
      show outsAt0 m c n _ j + rows _ _ _ _ j = _
      rw [outsAt_eq c n]
      unfold accSum
      have e1 : (n + 1) % 8 = n % 8 + 1 := by omega
      have e2 : n + 1 - (n + 1) % 8 = n - n % 8 := by omega
      rw [e2, e1, Finset.sum_range_succ _ (n % 8 + 1)]
      congr 1
      have e3 : n - n % 8 + (n % 8 + 1) = n + 1 := by omega
      rw [e3, contrib, dif_pos h]

end Cert.KernelIdeal.KValue

end
-- ==== Proof.LibLossSums.lean ====
import Idealize.ShloMosaic.Lib.ValueIdx
import Idealize.ShloMosaic.PureOps.Ideal.Laws

/-!
  Re-indexing finite sums over array indices: a sum over a rank-3 or rank-4 index set as the iterated sum over
  its coordinates; the total of a shape cast and of an add-reduction is the total of the operand; a sum over
  range (a * b) as a double sum; the total of an array over [n0, n1, n2, n3] as the sum of its row totals, and
  the total of a block of eight consecutive rows as eight row totals.
-/

open scoped BigOperators

noncomputable section

namespace Cert.LossSums

open Idealize.ShloMosaic Idealize.ShloMosaic.ValueIdx

/-- A rank-3 index set is the product of its coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A shape cast keeps every element, so it keeps the total. -/
theorem sum_shapeCast {M : Type} [AddCommMonoid M] {s t : Shape} (x : s.Idx → M) (h : s.ShapeCasts t) :
    ∑ j, shapeCast t x h j = ∑ i, x i :=
  Equiv.sum_comp (Shape.reshapeEquiv h) x

/-- An add-reduction over some axes sums, at each kept index, the elements that reduce to it: the total is kept. -/
theorem sum_reduceAdd {s t : Shape} {axes : List (Fin s.rank)} (h : s.Reduces axes t) (x : s.Idx → EReal) :
    ∑ j, Ideal.reduceAdd h x j = ∑ i, x i := by
  unfold Ideal.reduceAdd
  exact Finset.sum_fiberwise Finset.univ (fun i => h.drop i) x

/-- The same for the vector unit's add-reduction read on the extended reals. -/
theorem sum_multiReduction_add {s t : Shape} {axes : List (Fin s.rank)} {φ : FTy} (src : FVec Ideal s φ) (acc : BitVec φ.bits)
    (h : s.Reduces axes t) (hφ : FKind.Formats φ) (hacc : acc = FKind.add.neutral φ hφ) :
    ∑ j, multiReduction .add axes t src acc h hφ hacc j = ∑ i, src i :=
  sum_reduceAdd h src

/-- The same with the f32 zero word as the accumulator, its neutrality stated as the equation of that word with itself. -/
theorem sum_multiReduction_add_f32 {s t : Shape} {axes : List (Fin s.rank)} (src : FVec Ideal s .f32)
    (h : s.Reduces axes t) (hφ : FKind.Formats .f32) (hacc : (0x00000000#32 : BitVec 32) = 0x00000000#32) :
    ∑ j, multiReduction .add axes t src 0x00000000#32 h hφ hacc j = ∑ i, src i :=
  sum_reduceAdd h src

/-- A sum over range (a * b) as the double sum over the quotient and the remainder. -/
theorem sum_range_mul {M : Type*} [AddCommMonoid M] (f : ℕ → M) (a b : ℕ) :
    ∑ k ∈ Finset.range (a * b), f k = ∑ i ∈ Finset.range a, ∑ j ∈ Finset.range b, f (b * i + j) := by
  induction a with
  | zero => simp
  | succ a ih =>
    rw [Nat.succ_mul, Finset.sum_range_add, ih, Finset.sum_range_succ]
    congr 1
    refine Finset.sum_congr rfl fun j _ => ?_
    rw [Nat.mul_comm]

/-- Row n's total of an array over [n0, n1, n2, n3] (zero past the array). -/
def rowTot {M : Type*} [AddCommMonoid M] {n0 n1 n2 n3 : Nat} (g : (⟨4, ![n0, n1, n2, n3]⟩ : Shape).Idx → M) (n : ℕ) : M :=
  if h : n < n0 then ∑ c : Fin n1, ∑ h' : Fin n2, ∑ l : Fin n3, g (ix4 ⟨n, h⟩ c h' l) else 0

/-- The array's total is the sum of its row totals. -/
theorem sum_eq_sum_rowTot {M : Type*} [AddCommMonoid M] {n0 n1 n2 n3 : Nat} (g : (⟨4, ![n0, n1, n2, n3]⟩ : Shape).Idx → M) :
    ∑ e, g e = ∑ n ∈ Finset.range n0, rowTot g n := by
  rw [sum_idx4, ← Fin.sum_univ_eq_sum_range (fun n => rowTot g n) n0]
  refine Finset.sum_congr rfl fun a _ => ?_
  rw [rowTot, dif_pos a.isLt]

/-- A block of eight consecutive rows, from row 8 k on: its total is those eight row totals. -/
theorem sum_block {M : Type*} [AddCommMonoid M] {n1 n2 n3 : Nat} (g : (⟨4, ![128, n1, n2, n3]⟩ : Shape).Idx → M)
    (k : ℕ) (hk : k < 16) (x : (⟨4, ![8, n1, n2, n3]⟩ : Shape).Idx → M)
    (hx : ∀ (b : Fin 8) (c : Fin n1) (h : Fin n2) (l : Fin n3),
      x (ix4 b c h l) = g (ix4 ⟨8 * k + b.val, by have := b.isLt; omega⟩ c h l)) :
    ∑ y, x y = ∑ b ∈ Finset.range 8, rowTot g (8 * k + b) := by
  rw [sum_idx4, ← Fin.sum_univ_eq_sum_range (fun b => rowTot g (8 * k + b)) 8]
  refine Finset.sum_congr rfl fun b _ => ?_
  rw [rowTot, dif_pos (by have := b.isLt; omega)]
  exact Finset.sum_congr rfl fun c _ => Finset.sum_congr rfl fun h _ => Finset.sum_congr rfl fun l _ => hx b c h l

/-- Two partitions of eight points, each point a block of eight rows: together the 128 rows. -/
theorem sum_points {M : Type*} [AddCommMonoid M] (T R : ℕ → M)
    (hT : ∀ k, k < 16 → T k = ∑ b ∈ Finset.range 8, R (8 * k + b)) :
    ∑ p : Fin 2, ∑ i ∈ Finset.range 8, T (8 * p.val + i) = ∑ n ∈ Finset.range 128, R n := by
  rw [Fin.sum_univ_eq_sum_range (fun p => ∑ i ∈ Finset.range 8, T (8 * p + i)) 2, ← sum_range_mul T 2 8,
    show 2 * 8 = 16 from rfl, show 128 = 16 * 8 from rfl, sum_range_mul R 16 8]
  exact Finset.sum_congr rfl fun k hk => hT k (Finset.mem_range.mp hk)

end Cert.LossSums

end
-- ==== Proof.LossSpec.lean ====
import Idealize.ShloMosaic.PureOps.Ideal.Laws
import Idealize.ShloMosaic.Lib.ValueIdx

/-!
  The loss as mathematics on the extended reals.

  For true scores y and predicted scores p over [128, 1, 128, 128] and true / predicted geometries a, b over
  [128, 8, 128, 128], with N = 128 * 128 * 128 = 2^21 score entries,

    S = sum y,   A = sum y * log p,   B = sum (1 - y) * log(1 + (0 - p)),   G = sum huber(a, b),
    beta = 1 - S / N,
    loss = ((-beta) * A - (1 - beta) * B) / 128 + ((G / 8) / N) * 1,

  where huber(a, b) = 0.5 * d * d if d < 1 else d - 0.5, with d = |a - b|.
-/

noncomputable section

namespace Cert.LossSpec

open Idealize.ShloMosaic

/-- The float words of 0, 1, 0.5, 2^21, 128 and 8, read as extended reals. -/
abbrev w0 : EReal := Ideal.ofBits .f32 0x00000000#32
abbrev w1 : EReal := Ideal.ofBits .f32 0x3F800000#32
abbrev wh : EReal := Ideal.ofBits .f32 0x3F000000#32
abbrev wN : EReal := Ideal.ofBits .f32 0x4A000000#32
abbrev w128 : EReal := Ideal.ofBits .f32 0x43000000#32
abbrev w8 : EReal := Ideal.ofBits .f32 0x41000000#32

/-- The smoothed L1 distance of one pair: with d = |a - b|, half of d squared below 1, d minus one half from 1 on. -/
def huber (a b : EReal) : EReal :=
  Scalar.select (Ideal.cmp .olt (max (a - b) (-(a - b))) w1)
    ((wh * max (a - b) (-(a - b))) * max (a - b) (-(a - b)))
    (max (a - b) (-(a - b)) - wh)

/-- The loss from the four totals: the score part weighted by beta = 1 - S / N and divided by the batch size,
    plus the geometry part divided by the channel count and the pixel count. -/
def loss (S A B G : EReal) : EReal :=
  Ideal.div ((-(w1 - Ideal.div S wN)) * A - (w1 - (w1 - Ideal.div S wN)) * B) w128
    + (Ideal.div (Ideal.div G w8) wN) * w1

end Cert.LossSpec

end
-- ==== Proof.KernelRows.lean ====
import proofs.«104741_j61151744360901_2_alg».proof.Proof.KernelAcc
import proofs.«104741_j61151744360901_2_alg».proof.Proof.LibLossSums
import proofs.«104741_j61151744360901_2_alg».proof.Proof.LossSpec

noncomputable section

open Idealize.ShloMosaic Idealize.ShloMosaic.TcCoe Idealize.SL.Sem
open Idealize.ShloMosaic.ValueIdx

namespace Cert.KernelIdeal.KValue

open Cert.KernelIdeal Cert.KernelIdeal.Gen Cert.LossSums Cert.LossSpec

/-- The geometry row before its last shape cast: the smoothed L1 of the two geometry blocks, summed over the rows,
    then the channels, then the batch tile, lane by lane. -/
def geoLane (v31 v32 : Vec Ideal S8x8x128x128 .f32) : FVec Ideal S1x1x1x128 .f32 :=
  have v33 : FVec Ideal S8x8x128x128 .f32 := subf v31 v32
  have v34 : FVec Ideal S8x8x128x128 .f32 := absf v33
  have cst_26 : Ideal .f32 := Scalar.ofBits .f32 0x3F800000#32
  have v35 : FVec Ideal S8x8x128x128 .f32 := broadcast S8x8x128x128 cst_26
  have v36 : IVec S8x8x128x128 1 := cmpf .olt v34 v35
  have cst_27 : Ideal .f32 := Scalar.ofBits .f32 0x3F000000#32
  have v37 : FVec Ideal S8x8x128x128 .f32 := broadcast S8x8x128x128 cst_27
  have v38 : FVec Ideal S8x8x128x128 .f32 := mulf v37 v34
  have v39 : FVec Ideal S8x8x128x128 .f32 := mulf v38 v34
  have cst_28 : Ideal .f32 := Scalar.ofBits .f32 0x3F000000#32
  have v40 : FVec Ideal S8x8x128x128 .f32 := broadcast S8x8x128x128 cst_28
  have v41 : FVec Ideal S8x8x128x128 .f32 := subf v34 v40
  have v42 : FVec Ideal S8x8x128x128 .f32 := select v36 v39 v41
  have v43 : FVec Ideal S8x8x128 .f32 := multiReduction .add [2] S8x8x128 v42 0x00000000#32 Facts₀.reduces_S8x8x128x128_S8x8x128 (.inl rfl) rfl
  have v44 : FVec Ideal S8x8x1x128 .f32 := shapeCast S8x8x1x128 v43 Facts₀.shapeCasts_S8x8x128_S8x8x1x128
  have v45 : FVec Ideal S8x1x128 .f32 := multiReduction .add [1] S8x1x128 v44 0x00000000#32 Facts₀.reduces_S8x8x1x128_S8x1x128 (.inl rfl) rfl
  have v46 : FVec Ideal S8x1x1x128 .f32 := shapeCast S8x1x1x128 v45 Facts₀.shapeCasts_S8x1x128_S8x1x1x128
  have v47 : FVec Ideal S1x1x128 .f32 := multiReduction .add [0] S1x1x128 v46 0x00000000#32 Facts₀.reduces_S8x1x1x128_S1x1x128 (.inl rfl) rfl
  shapeCast S1x1x1x128 v47 Facts₀.shapeCasts_S1x1x128_S1x1x1x128

/-- Row r of a point's rows is piece r of the concatenation: the true scores, the positive term, the negative term,
    the geometry term, each a [1, 1, 128] vector of lane partial sums. -/
theorem rows_apply_0 (x0 x1 : Vec Ideal S8x1x128x128 .f32) (x2 x3 : Vec Ideal S8x8x128x128 .f32) (l : Fin 128) :
    rows x0 x1 x2 x3 (ix3 0 0 l) = shapeCast S1x1x128 (k0_pay3 x0) Facts₀.shapeCasts_S1x1x1x128_S1x1x128 (ix3 0 0 l) := by
  unfold rows step k0_pay1
  simp only [addf_apply, shapeCast_self, zero_add]
  exact concatenate_apply_piece (1 : Fin S1x4x128.rank) _ _ (ix3 0 0 l) 0 (by show (0 : ℕ) < 4; omega) S1x1x128 _ rfl rfl 0 rfl (ix3 0 0 l)
    (fun b hb => by
      match b with
      | ⟨0, _⟩ => rfl
      | ⟨1, _⟩ => exact absurd rfl hb
      | ⟨2, _⟩ => rfl)
    rfl

theorem rows_apply_1 (x0 x1 : Vec Ideal S8x1x128x128 .f32) (x2 x3 : Vec Ideal S8x8x128x128 .f32) (l : Fin 128) :
    rows x0 x1 x2 x3 (ix3 0 1 l) = shapeCast S1x1x128 (k0_pay4 x0 x1) Facts₀.shapeCasts_S1x1x1x128_S1x1x128 (ix3 0 0 l) := by
  unfold rows step k0_pay1
  simp only [addf_apply, shapeCast_self, zero_add]
  exact concatenate_apply_piece (1 : Fin S1x4x128.rank) _ _ (ix3 0 1 l) 1 (by show (1 : ℕ) < 4; omega) S1x1x128 _ rfl rfl 1 rfl (ix3 0 0 l)
    (fun b hb => by
      match b with
      | ⟨0, _⟩ => rfl
      | ⟨1, _⟩ => exact absurd rfl hb
      | ⟨2, _⟩ => rfl)
    rfl

theorem rows_apply_2 (x0 x1 : Vec Ideal S8x1x128x128 .f32) (x2 x3 : Vec Ideal S8x8x128x128 .f32) (l : Fin 128) :
    rows x0 x1 x2 x3 (ix3 0 2 l) = shapeCast S1x1x128 (k0_pay5 x0 x1) Facts₀.shapeCasts_S1x1x1x128_S1x1x128 (ix3 0 0 l) := by
  unfold rows step k0_pay1
  simp only [addf_apply, shapeCast_self, zero_add]
  exact concatenate_apply_piece (1 : Fin S1x4x128.rank) _ _ (ix3 0 2 l) 2 (by show (2 : ℕ) < 4; omega) S1x1x128 _ rfl rfl 2 rfl (ix3 0 0 l)
    (fun b hb => by
      match b with
      | ⟨0, _⟩ => rfl
      | ⟨1, _⟩ => exact absurd rfl hb
      | ⟨2, _⟩ => rfl)
    rfl

theorem rows_apply_3 (x0 x1 : Vec Ideal S8x1x128x128 .f32) (x2 x3 : Vec Ideal S8x8x128x128 .f32) (l : Fin 128) :
    rows x0 x1 x2 x3 (ix3 0 3 l) = shapeCast S1x1x128 (geoLane x2 x3) Facts₀.shapeCasts_S1x1x1x128_S1x1x128 (ix3 0 0 l) := by
  unfold rows step k0_pay1
  simp only [addf_apply, shapeCast_self, zero_add]
  exact concatenate_apply_piece (1 : Fin S1x4x128.rank) _ _ (ix3 0 3 l) 3 (by show (3 : ℕ) < 4; omega) S1x1x128 _ rfl rfl 3 rfl (ix3 0 0 l)
    (fun b hb => by
      match b with
      | ⟨0, _⟩ => rfl
      | ⟨1, _⟩ => exact absurd rfl hb
      | ⟨2, _⟩ => rfl)
    rfl

/-- The lanes of a [1, 1, 128] vector are all its entries. -/
theorem lanes_eq_total (f : S1x1x128.Idx → EReal) : ∑ l : Fin 128, f (ix3 0 0 l) = ∑ j, f j := by
  rw [sum_idx3 f, Fin.sum_univ_one, Fin.sum_univ_one]

/-- Each row's lanes add up to the total of its integrand over the point's blocks: the shape casts and the three
    add-reductions keep the total. -/
theorem total_0 (x0 : Vec Ideal S8x1x128x128 .f32) :
    ∑ j, shapeCast S1x1x128 (k0_pay3 x0) Facts₀.shapeCasts_S1x1x1x128_S1x1x128 j = ∑ y, x0 y := by
  rw [sum_shapeCast]
  unfold k0_pay3
  simp only [sum_shapeCast, sum_multiReduction_add_f32]

theorem total_1 (x0 x1 : Vec Ideal S8x1x128x128 .f32) :
    ∑ j, shapeCast S1x1x128 (k0_pay4 x0 x1) Facts₀.shapeCasts_S1x1x1x128_S1x1x128 j = ∑ y, x0 y * Ideal.log (x1 y) := by
  rw [sum_shapeCast]
  unfold k0_pay4
  simp only [sum_shapeCast, sum_multiReduction_add_f32]
  rfl

theorem total_2 (x0 x1 : Vec Ideal S8x1x128x128 .f32) :
    ∑ j, shapeCast S1x1x128 (k0_pay5 x0 x1) Facts₀.shapeCasts_S1x1x1x128_S1x1x128 j
      = ∑ y, (w1 - x0 y) * Ideal.log1p (w0 - x1 y) := by
  rw [sum_shapeCast]
  unfold k0_pay5
  simp only [sum_shapeCast, sum_multiReduction_add_f32]
  rfl

theorem total_3 (x2 x3 : Vec Ideal S8x8x128x128 .f32) :
    ∑ j, shapeCast S1x1x128 (geoLane x2 x3) Facts₀.shapeCasts_S1x1x1x128_S1x1x128 j = ∑ y, huber (x2 y) (x3 y) := by
  rw [sum_shapeCast]
  unfold geoLane
  simp only [sum_shapeCast, sum_multiReduction_add_f32]
  rfl

end Cert.KernelIdeal.KValue

end
-- ==== Proof.KernelBlocks.lean ====
import proofs.«104741_j61151744360901_2_alg».proof.Proof.KernelRows

noncomputable section

open Idealize.ShloMosaic Idealize.ShloMosaic.TcCoe Idealize.SL.Sem
open Idealize.ShloMosaic.ValueIdx

namespace Cert.KernelIdeal.KValue

open Cert.KernelIdeal Cert.KernelIdeal.Gen Cert.LossSums Cert.LossSpec

variable (m : (ℓ : Loc nD τ sig) → Buf (Elt Ideal) ℓ)

/-- The input windows' block index at point t: the point's number on the batch axis, 0 on the others. -/
theorem in_index : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 4) = t.val ∧ win0_3.index t (1 : Fin 4) = 0 ∧ win0_3.index t (2 : Fin 4) = 0 ∧ win0_3.index t (3 : Fin 4) = 0) :=
  (by decide +kernel : ∀ t : Fin grid0.N, _)

/-- The argument arrays as functions of their indices. -/
abbrev arr0 (c : Dev nD) : S128x1x128x128.Idx → EReal := m ((c : Thread nD τ).loc main_arg0)
abbrev arr1 (c : Dev nD) : S128x1x128x128.Idx → EReal := m ((c : Thread nD τ).loc main_arg1)
abbrev arr2 (c : Dev nD) : S128x8x128x128.Idx → EReal := m ((c : Thread nD τ).loc main_arg2)
abbrev arr3 (c : Dev nD) : S128x8x128x128.Idx → EReal := m ((c : Thread nD τ).loc main_arg3)

/-- Point t's block of an argument array holds batch rows 8 t … 8 t + 7. -/
theorem iblk0_apply (c : Dev nD) (t : Fin cfg0.N) (b : Fin 8) (c' : Fin 1) (h : Fin 128) (l : Fin 128) (hb : 8 * t.val + b.val < 128) :
    (iblk m c 0 t : Vec Ideal S8x1x128x128 .f32) (ix4 b c' h l) = arr0 m c (ix4 ⟨8 * t.val + b.val, hb⟩ c' h l) := by
  obtain ⟨⟨i00, i01, i02, i03⟩, ⟨i10, i11, i12, i13⟩, ⟨i20, i21, i22, i23⟩, ⟨i30, i31, i32, i33⟩⟩ := in_index t
  unfold iblk
  rw [View.read_apply]
  show V m c main_arg0 _ = V m c main_arg0 _
  congr 1
  funext a
  apply Fin.ext
  match a with
  | ⟨0, _⟩ => show win0_0.index t (0 : Fin 4) * 8 + 1 * b.val = 8 * t.val + b.val; omega
  | ⟨1, _⟩ => show win0_0.index t (1 : Fin 4) * 1 + 1 * c'.val = c'.val; omega
  | ⟨2, _⟩ => show win0_0.index t (2 : Fin 4) * 128 + 1 * h.val = h.val; omega
  | ⟨3, _⟩ => show win0_0.index t (3 : Fin 4) * 128 + 1 * l.val = l.val; omega

theorem iblk1_apply (c : Dev nD) (t : Fin cfg0.N) (b : Fin 8) (c' : Fin 1) (h : Fin 128) (l : Fin 128) (hb : 8 * t.val + b.val < 128) :
    (iblk m c 1 t : Vec Ideal S8x1x128x128 .f32) (ix4 b c' h l) = arr1 m c (ix4 ⟨8 * t.val + b.val, hb⟩ c' h l) := by
  obtain ⟨⟨i00, i01, i02, i03⟩, ⟨i10, i11, i12, i13⟩, ⟨i20, i21, i22, i23⟩, ⟨i30, i31, i32, i33⟩⟩ := in_index t
  unfold iblk
  rw [View.read_apply]
  show V m c main_arg1 _ = V m c main_arg1 _
  congr 1
  funext a
  apply Fin.ext
  match a with
  | ⟨0, _⟩ => show win0_1.index t (0 : Fin 4) * 8 + 1 * b.val = 8 * t.val + b.val; omega
  | ⟨1, _⟩ => show win0_1.index t (1 : Fin 4) * 1 + 1 * c'.val = c'.val; omega
  | ⟨2, _⟩ => show win0_1.index t (2 : Fin 4) * 128 + 1 * h.val = h.val; omega
  | ⟨3, _⟩ => show win0_1.index t (3 : Fin 4) * 128 + 1 * l.val = l.val; omega

theorem iblk2_apply (c : Dev nD) (t : Fin cfg0.N) (b : Fin 8) (c' : Fin 8) (h : Fin 128) (l : Fin 128) (hb : 8 * t.val + b.val < 128) :
    (iblk m c 2 t : Vec Ideal S8x8x128x128 .f32) (ix4 b c' h l) = arr2 m c (ix4 ⟨8 * t.val + b.val, hb⟩ c' h l) := by
  obtain ⟨⟨i00, i01, i02, i03⟩, ⟨i10, i11, i12, i13⟩, ⟨i20, i21, i22, i23⟩, ⟨i30, i31, i32, i33⟩⟩ := in_index t
  unfold iblk
  rw [View.read_apply]
  show V m c main_arg2 _ = V m c main_arg2 _
  congr 1
  funext a
  apply Fin.ext
  match a with
  | ⟨0, _⟩ => show win0_2.index t (0 : Fin 4) * 8 + 1 * b.val = 8 * t.val + b.val; omega
  | ⟨1, _⟩ => show win0_2.index t (1 : Fin 4) * 8 + 1 * c'.val = c'.val; omega
  | ⟨2, _⟩ => show win0_2.index t (2 : Fin 4) * 128 + 1 * h.val = h.val; omega
  | ⟨3, _⟩ => show win0_2.index t (3 : Fin 4) * 128 + 1 * l.val = l.val; omega

theorem iblk3_apply (c : Dev nD) (t : Fin cfg0.N) (b : Fin 8) (c' : Fin 8) (h : Fin 128) (l : Fin 128) (hb : 8 * t.val + b.val < 128) :
    (iblk m c 3 t : Vec Ideal S8x8x128x128 .f32) (ix4 b c' h l) = arr3 m c (ix4 ⟨8 * t.val + b.val, hb⟩ c' h l) := by
  obtain ⟨⟨i00, i01, i02, i03⟩, ⟨i10, i11, i12, i13⟩, ⟨i20, i21, i22, i23⟩, ⟨i30, i31, i32, i33⟩⟩ := in_index t
  unfold iblk
  rw [View.read_apply]
  show V m c main_arg3 _ = V m c main_arg3 _
  congr 1
  funext a
  apply Fin.ext
  match a with
  | ⟨0, _⟩ => show win0_3.index t (0 : Fin 4) * 8 + 1 * b.val = 8 * t.val + b.val; omega
  | ⟨1, _⟩ => show win0_3.index t (1 : Fin 4) * 8 + 1 * c'.val = c'.val; omega
  | ⟨2, _⟩ => show win0_3.index t (2 : Fin 4) * 128 + 1 * h.val = h.val; omega
  | ⟨3, _⟩ => show win0_3.index t (3 : Fin 4) * 128 + 1 * l.val = l.val; omega

/-- The four integrands, entry by entry of the argument arrays: the true score, true score times the log of the
    predicted score, (1 - true) times log1p of minus the predicted score, the smoothed L1 of the geometries. -/
def gS (c : Dev nD) : S128x1x128x128.Idx → EReal := arr0 m c
def gA (c : Dev nD) : S128x1x128x128.Idx → EReal := fun e => arr0 m c e * Ideal.log (arr1 m c e)
def gB (c : Dev nD) : S128x1x128x128.Idx → EReal := fun e => (w1 - arr0 m c e) * Ideal.log1p (w0 - arr1 m c e)
def gG (c : Dev nD) : S128x8x128x128.Idx → EReal := fun g => huber (arr2 m c g) (arr3 m c g)

/-- The lanes of row r of point k's rows add up to the integrand's totals over batch rows 8 k … 8 k + 7. -/
theorem lane_total_0 (c : Dev nD) (k : ℕ) (hk : k < cfg0.N) :
    ∑ l : Fin 128, contrib m c k (ix3 0 0 l) = ∑ b ∈ Finset.range 8, rowTot (gS m c) (8 * k + b) := by
  have hN : cfg0.N = 16 := N_0
  rw [contrib, dif_pos hk]
  simp only [rows_apply_0]
  refine ((lanes_eq_total _).trans (total_0 _)).trans ?_
  refine sum_block (gS m c) k (by omega) _ (fun b c' h l => ?_)
  exact iblk0_apply m c ⟨k, hk⟩ b c' h l _

theorem lane_total_1 (c : Dev nD) (k : ℕ) (hk : k < cfg0.N) :
    ∑ l : Fin 128, contrib m c k (ix3 0 1 l) = ∑ b ∈ Finset.range 8, rowTot (gA m c) (8 * k + b) := by
  have hN : cfg0.N = 16 := N_0
  rw [contrib, dif_pos hk]
  simp only [rows_apply_1]
  refine ((lanes_eq_total _).trans (total_1 _ _)).trans ?_
  refine sum_block (gA m c) k (by omega) _ (fun b c' h l => ?_)
  have hb : 8 * k + b.val < 128 := by have := b.isLt; omega
  exact congrArg₂ (fun a b : EReal => a * Ideal.log b) (iblk0_apply m c ⟨k, hk⟩ b c' h l hb) (iblk1_apply m c ⟨k, hk⟩ b c' h l hb)

theorem lane_total_2 (c : Dev nD) (k : ℕ) (hk : k < cfg0.N) :
    ∑ l : Fin 128, contrib m c k (ix3 0 2 l) = ∑ b ∈ Finset.range 8, rowTot (gB m c) (8 * k + b) := by
  have hN : cfg0.N = 16 := N_0
  rw [contrib, dif_pos hk]
  simp only [rows_apply_2]
  refine ((lanes_eq_total _).trans (total_2 _ _)).trans ?_
  refine sum_block (gB m c) k (by omega) _ (fun b c' h l => ?_)
  have hb : 8 * k + b.val < 128 := by have := b.isLt; omega
  exact congrArg₂ (fun a b : EReal => (w1 - a) * Ideal.log1p (w0 - b)) (iblk0_apply m c ⟨k, hk⟩ b c' h l hb) (iblk1_apply m c ⟨k, hk⟩ b c' h l hb)

theorem lane_total_3 (c : Dev nD) (k : ℕ) (hk : k < cfg0.N) :
    ∑ l : Fin 128, contrib m c k (ix3 0 3 l) = ∑ b ∈ Finset.range 8, rowTot (gG m c) (8 * k + b) := by
  have hN : cfg0.N = 16 := N_0
  rw [contrib, dif_pos hk]
  simp only [rows_apply_3]
  refine ((lanes_eq_total _).trans (total_3 _ _)).trans ?_
  refine sum_block (gG m c) k (by omega) _ (fun b c' h l => ?_)
  have hb : 8 * k + b.val < 128 := by have := b.isLt; omega
  exact congrArg₂ (fun a b : EReal => huber a b) (iblk2_apply m c ⟨k, hk⟩ b c' h l hb) (iblk3_apply m c ⟨k, hk⟩ b c' h l hb)

end Cert.KernelIdeal.KValue

end
-- ==== Proof.KernelOut.lean ====
import proofs.«104741_j61151744360901_2_alg».proof.Proof.KernelAcc

noncomputable section

open Idealize.ShloMosaic Idealize.ShloMosaic.TcCoe Idealize.SL.Sem
open Idealize.ShloMosaic.Pipeline (Dat)
open Idealize.ShloMosaic.ValueIdx

namespace Cert.KernelIdeal.KValue

open Cert.KernelIdeal Cert.KernelIdeal.Gen

variable (m : (ℓ : Loc nD τ sig) → Buf (Elt Ideal) ℓ) (ρ : Dev nD → PrngReg)

/-- The partial-sum array after the run: partition p's block is the accumulator after the partition's last
    point, 8 p + 7. -/
def outAt (c : Dev nD) (p : Fin 2) (r : Fin 4) (l : Fin 128) : EReal := accSum m c (8 * p.val + 7) (ix3 0 r l)

def outArr (c : Dev nD) : S2x4x128.Idx → EReal := fun j => outAt m c (j 0) (j 1) (j 2)

/-- The output window's block index at point t: the partition t / 8 on the first axis, 0 on the others. -/
theorem out_index : ∀ t : Fin cfg0.N, win0_4.index t (0 : Fin 3) = t.val / 8 ∧ win0_4.index t (1 : Fin 3) = 0 ∧ win0_4.index t (2 : Fin 3) = 0 :=
  (by decide +kernel : ∀ t : Fin grid0.N, _)

/-- What a write-back point writes is its block of the partial-sum array. -/
theorem flushed_eq (c : Dev nD) (t : Fin cfg0.N) (hf : (cfg0.win 4).flush t = true) :
    (dats m 0 c).flushed 4 t = ((cfg0.win 4).blk t).view.read (Elt Ideal) (outArr m c) := by
  have h7 : t.val % 8 = 7 := (flush0_4 t).mp hf
  obtain ⟨i0, i1, i2⟩ := out_index t
  show (cfg0.win 4).cut (grid0.coords t) ((dats m 0 c).after 4 t) = _
  rw [after0_4, outsAt_eq]
  funext y
  show accSum m c t.val y = outArr m c (((cfg0.win 4).blk t).view.emb y)
  have hy0 : (y 0).val < 1 := (y 0).isLt
  have e0 : ((((cfg0.win 4).blk t).view.emb y) 0).val = t.val / 8 := by
    show win0_4.index t (0 : Fin 3) * 1 + 1 * (y 0).val = _
    omega
  have hy1 : (y 1).val < 4 := (y 1).isLt
  have hy2 : (y 2).val < 128 := (y 2).isLt
  have e1 : ((((cfg0.win 4).blk t).view.emb y) 1).val = (y 1).val := by
    show win0_4.index t (1 : Fin 3) * 4 + 1 * (y 1).val = _
    omega
  have e2 : ((((cfg0.win 4).blk t).view.emb y) 2).val = (y 2).val := by
    show win0_4.index t (2 : Fin 3) * 128 + 1 * (y 2).val = _
    omega
  have ek : t.val = 8 * ((((cfg0.win 4).blk t).view.emb y) 0).val + 7 := by omega
  have cg : ∀ (k k' : ℕ) (j j' : S1x4x128.Idx), k = k' → j = j' → accSum m c k j = accSum m c k' j' := by
    intro k k' j j' hk hj; rw [hk, hj]
  unfold outArr outAt
  refine cg _ _ _ _ ek ?_
  funext a
  apply Fin.ext
  match a with
  | ⟨0, _⟩ => show (y 0).val = 0; omega
  | ⟨1, _⟩ => exact e1.symm
  | ⟨2, _⟩ => exact e2.symm

/-- An index of the partial-sum array is in point t's block iff each coordinate is in the block's range. -/
theorem mem_blk (t : Fin cfg0.N) (i : S2x4x128.Idx) :
    i ∈ ((cfg0.win 4).blk t).view.set ↔ ∀ a : Fin 3, win0_4.index t a * S1x4x128.size a ≤ (i a).val ∧ (i a).val < win0_4.index t a * S1x4x128.size a + S1x4x128.size a := by
  show i ∈ ((View.whole main_v0).slice (win0_4.rect t)).set ↔ _
  rw [View.set_slice_whole, Rect.mem_set_unit]
  exact Iff.rfl

/-- Partition p's block is written back at its last point, so the two write-backs cover the array. -/
theorem cover (i : S2x4x128.Idx) : ∃ t : Fin cfg0.N, (cfg0.win 4).flush t = true ∧ i ∈ ((cfg0.win 4).blk t).view.set := by
  have hN : cfg0.N = 16 := N_0
  have h0 : (i 0).val < 2 := (i 0).isLt
  have h1 : (i 1).val < 4 := (i 1).isLt
  have h2 : (i 2).val < 128 := (i 2).isLt
  let t : Fin cfg0.N := ⟨8 * (i 0).val + 7, by omega⟩
  have ht : t.val = 8 * (i 0).val + 7 := rfl
  obtain ⟨i0, i1, i2⟩ := out_index t
  refine ⟨t, (flush0_4 t).mpr (by omega), ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 4 ≤ (i 1).val ∧ (i 1).val < win0_4.index t (1 : Fin 3) * 4 + 4; omega
  | ⟨2, _⟩ => show win0_4.index t (2 : Fin 3) * 128 ≤ (i 2).val ∧ (i 2).val < win0_4.index t (2 : Fin 3) * 128 + 128; omega

/-- So the result array of the region ends holding the partial-sum array. -/
theorem final_out (c : Dev nD) : (dats m 0 c).arrAt 4 cfg0.N = outArr m c :=
  (dats m 0 c).arrAt_eq_of_cover 4 (outArr m c) (flushed_eq m c) cover

end Cert.KernelIdeal.KValue

end
-- ==== Proof.KernelTotals.lean ====
import proofs.«104741_j61151744360901_2_alg».proof.Proof.KernelBlocks
import proofs.«104741_j61151744360901_2_alg».proof.Proof.KernelOut

noncomputable section

open Idealize.ShloMosaic Idealize.ShloMosaic.TcCoe Idealize.SL.Sem
open Idealize.ShloMosaic.ValueIdx

namespace Cert.KernelIdeal.KValue

open Cert.KernelIdeal Cert.KernelIdeal.Gen Cert.LossSums Cert.LossSpec

variable (m : (ℓ : Loc nD τ sig) → Buf (Elt Ideal) ℓ)

/-- An entry of the partial-sum array: the eight points of its partition, added. -/
theorem out_apply (c : Dev nD) (p : Fin 2) (r : Fin 4) (l : Fin 128) :
    outArr m c (ix3 p r l) = ∑ i ∈ Finset.range 8, contrib m c (8 * p.val + i) (ix3 0 r l) := by
  show accSum m c (8 * p.val + 7) (ix3 0 r l) = _
  unfold accSum
  have e1 : (8 * p.val + 7) % 8 = 7 := by omega
  have e2 : 8 * p.val + 7 - 7 = 8 * p.val := by omega
  rw [e1, e2]

/-- Row r of the partial-sum array, summed over the two partitions and the lanes, is the integrand's total over
    the whole argument arrays: 2 partitions × 8 points × 8 batch rows are the 128 batch rows. -/
theorem row_total_0 (c : Dev nD) : ∑ p : Fin 2, ∑ l : Fin 128, outArr m c (ix3 p 0 l) = ∑ e, gS m c e := by
  simp only [out_apply]
  rw [sum_eq_sum_rowTot (gS m c)]
  rw [← sum_points (fun k => ∑ l : Fin 128, contrib m c k (ix3 0 0 l)) (rowTot (gS m c))
    (fun k hk => lane_total_0 m c k (by rw [show cfg0.N = 16 from N_0]; exact hk))]
  exact Finset.sum_congr rfl fun p _ => Finset.sum_comm

theorem row_total_1 (c : Dev nD) : ∑ p : Fin 2, ∑ l : Fin 128, outArr m c (ix3 p 1 l) = ∑ e, gA m c e := by
  simp only [out_apply]
  rw [sum_eq_sum_rowTot (gA m c)]
  rw [← sum_points (fun k => ∑ l : Fin 128, contrib m c k (ix3 0 1 l)) (rowTot (gA m c))
    (fun k hk => lane_total_1 m c k (by rw [show cfg0.N = 16 from N_0]; exact hk))]
  exact Finset.sum_congr rfl fun p _ => Finset.sum_comm

theorem row_total_2 (c : Dev nD) : ∑ p : Fin 2, ∑ l : Fin 128, outArr m c (ix3 p 2 l) = ∑ e, gB m c e := by
  simp only [out_apply]
  rw [sum_eq_sum_rowTot (gB m c)]
  rw [← sum_points (fun k => ∑ l : Fin 128, contrib m c k (ix3 0 2 l)) (rowTot (gB m c))
    (fun k hk => lane_total_2 m c k (by rw [show cfg0.N = 16 from N_0]; exact hk))]
  exact Finset.sum_congr rfl fun p _ => Finset.sum_comm

theorem row_total_3 (c : Dev nD) : ∑ p : Fin 2, ∑ l : Fin 128, outArr m c (ix3 p 3 l) = ∑ e, gG m c e := by
  simp only [out_apply]
  rw [sum_eq_sum_rowTot (gG m c)]
  rw [← sum_points (fun k => ∑ l : Fin 128, contrib m c k (ix3 0 3 l)) (rowTot (gG m c))
    (fun k hk => lane_total_3 m c k (by rw [show cfg0.N = 16 from N_0]; exact hk))]
  exact Finset.sum_congr rfl fun p _ => Finset.sum_comm

end Cert.KernelIdeal.KValue

end
-- ==== Proof.KernelTail.lean ====
/-
  The host operations after the kernel's region, read at the extended reals. The region leaves an array o of shape
  [2, 4, 128]; the host then sums it over its first and last axes into four totals, takes each total out as a scalar
  (a slice [k : k + 1] reshaped to rank 0), and combines them:

    S, A, B, G = the totals of rows 0, 1, 2, 3,      β = 1 - S / N,
    result = ((-β) · A - (1 - β) · B) / 128 + ((G / 8) / N) · 1.

  `tail` is the composition of these operations as one function of o; after the host operations the result buffer
  holds `tail` of what the region left. Read at its one index, `tail o` is the loss of the four row totals, where
  the total of row r is the double sum of o (p, r, l) over p < 2 and l < 128: the indices of o that reduce to r are
  exactly the (p, r, l), the host sum starts from the constant 0, and a one-element slice reshaped to a scalar is that
  element.
-/
import proofs.«104741_j61151744360901_2_alg».proof.Proof.Gen.KernelIdeal.Frame
import proofs.«104741_j61151744360901_2_alg».proof.Proof.LossSpec
import Idealize.ShloMosaic.Lib.ValueIdx
import Idealize.ShloMosaic.Lib.StableHlo.Run
import Idealize.ShloMosaic.Lib.Tactic
import Idealize.ShloMosaic.Lib.Pipeline.Value
import Idealize.ShloMosaic.PureOps.Ideal.Laws

noncomputable section

open scoped BigOperators

namespace Cert.KernelIdeal.KTail

open Cert.KernelIdeal Cert.KernelIdeal.Gen Cert.LossSpec
open Idealize.ShloMosaic Idealize.ShloMosaic.ValueIdx Idealize.ShloMosaic.StableHlo

/-- The four totals: the host's sum of o over its first and last axes, from the constant 0. -/
abbrev tot (o : FVec Ideal S2x4x128 .f32) : FVec Ideal S4 .f32 :=
  Host.reduceAdd o (constant (F := Ideal) S_ .f32 0x00000000#32) reducesTo_S2x4x128_S4_d0_2 h_S_

/-- Entry k of a vector of four, as a scalar: the slice [k : k + 1] reshaped to rank 0. -/
abbrev pick (t : FVec Ideal S4 .f32) (k : Nat) (h : S4.Slices ![k] S1) : FVec Ideal S_ .f32 :=
  shapeCast S_ (extractStridedSlice S1 ![k] t h) shapeCasts_S1_S_

/-- β = 1 - S / N. -/
abbrev beta (o : FVec Ideal S2x4x128 .f32) : FVec Ideal S_ .f32 :=
  subf (constant (F := Ideal) S_ .f32 0x3F800000#32) (Host.divf (pick (tot o) 0 slices_S4_S1_0) (constant (F := Ideal) S_ .f32 0x4A000000#32))

/-- The host operations after the region, composed: the result as a function of the array the region leaves. -/
def tail (o : FVec Ideal S2x4x128 .f32) : FVec Ideal S_ .f32 :=
  addf
    (Host.divf
      (subf (mulf (Host.negf (beta o)) (pick (tot o) 1 slices_S4_S1_1))
        (mulf (subf (constant (F := Ideal) S_ .f32 0x3F800000#32) (beta o)) (pick (tot o) 2 slices_S4_S1_2)))
      (constant (F := Ideal) S_ .f32 0x43000000#32))
    (mulf
      (Host.divf (Host.divf (pick (tot o) 3 slices_S4_S1_3) (constant (F := Ideal) S_ .f32 0x41000000#32))
        (constant (F := Ideal) S_ .f32 0x4A000000#32))
      (constant (F := Ideal) S_ .f32 0x3F800000#32))

/-- After the host operations, the result buffer holds `tail` of what the region's output buffer held. -/
theorem tail_after (V : Valuation τ sig (Elt Ideal)) :
    StableHlo.after (hostOps1 (F := Ideal)) V (Proc.devRef .tc main_v21) = tail (V (Proc.devRef .tc main_v0)) := by
  after_results_simp
  rfl

/-- The total of row r of o: the double sum over the first and last axes. -/
def rowTotal (o : FVec Ideal S2x4x128 .f32) (r : Fin 4) : EReal := ∑ p : Fin 2, ∑ l : Fin 128, o (ix3 p r l)

/-- Dropping the first and last coordinates of (p, r, l) leaves r; -/
theorem drop_ix3 (p : Fin 2) (r : Fin 4) (l : Fin 128) : reducesTo_S2x4x128_S4_d0_2.drop (ix3 p r l) = ix1 r := by
  funext b
  match b with
  | ⟨0, _⟩ => rfl

/-- and an index that drops to r is (its first coordinate, r, its last coordinate); -/
theorem eq_ix3_of_drop (i : S2x4x128.Idx) (j : S4.Idx) (h : reducesTo_S2x4x128_S4_d0_2.drop i = j) :
    i = ix3 (i 0) (j 0) (i 2) := by
  subst h
  funext a
  match a with
  | ⟨0, _⟩ => rfl
  | ⟨1, _⟩ => rfl
  | ⟨2, _⟩ => rfl

/-- so the indices the host sums into total r are the (p, r, l). -/
def rowEmb (r : Fin 4) : Fin 2 × Fin 128 ↪ S2x4x128.Idx :=
  ⟨fun pl => ix3 pl.1 r pl.2, fun a b h => Prod.ext (congrFun h 0) (congrFun h 2)⟩

theorem filter_drop (r : Fin 4) :
    Finset.univ.filter (fun i : S2x4x128.Idx => reducesTo_S2x4x128_S4_d0_2.drop i = ix1 r) = Finset.univ.map (rowEmb r) := by
  ext i
  simp only [Finset.mem_filter, Finset.mem_univ, true_and, Finset.mem_map, rowEmb, Function.Embedding.coeFn_mk]
  exact ⟨fun h => ⟨(i 0, i 2), (eq_ix3_of_drop i (ix1 r) h).symm⟩, fun ⟨pl, hpl⟩ => hpl ▸ drop_ix3 pl.1 r pl.2⟩

/-- Total r, as the host computes it, is the row total: the sum starts from the constant 0. -/
theorem tot_apply (o : FVec Ideal S2x4x128 .f32) (r : Fin 4) : tot o (ix1 r) = rowTotal o r := by
  show Ideal.hostReduceAdd reducesTo_S2x4x128_S4_d0_2 o (Ideal.ofBits .f32 0x00000000#32) (ix1 r) = _
  unfold Ideal.hostReduceAdd
  rw [filter_drop, Finset.sum_map, Ideal.ofBits_zero_f32, zero_add, Fintype.sum_prod_type]
  rfl

/-- A one-element slice at k reshaped to a scalar is entry k: both sides of the reshape have one row-major position. -/
theorem pick_apply (t : FVec Ideal S4 .f32) (k : Nat) (hk : k < 4) (h : S4.Slices ![k] S1) (i : S_.Idx) :
    pick t k h i = t (ix1 ⟨k, hk⟩) := by
  have e : pick t k h i = extractStridedSlice S1 ![k] t h (ix1 (0 : Fin 1)) :=
    shapeCast_apply _ shapeCasts_S1_S_ i (ix1 (0 : Fin 1)) (by
      have h1 := (S1.rowMajor (ix1 (0 : Fin 1))).isLt
      have h2 := (S_.rowMajor i).isLt
      have e1 : S1.numel = 1 := by decide
      have e2 : S_.numel = 1 := by decide
      omega)
  rw [e]
  unfold extractStridedSlice
  congr 1
  funext a
  match a with
  | ⟨0, _⟩ => exact Fin.ext (Nat.add_zero k)

/-- THE HOST OPERATIONS' VALUE at the result's one index: the loss of the four row totals. -/
theorem tail_apply (o : FVec Ideal S2x4x128 .f32) :
    tail o ix0 = loss (rowTotal o 0) (rowTotal o 1) (rowTotal o 2) (rowTotal o 3) := by
  have e0 := (pick_apply (tot o) 0 (by decide) slices_S4_S1_0 ix0).trans (tot_apply o 0)
  have e1 := (pick_apply (tot o) 1 (by decide) slices_S4_S1_1 ix0).trans (tot_apply o 1)
  have e2 := (pick_apply (tot o) 2 (by decide) slices_S4_S1_2 ix0).trans (tot_apply o 2)
  have e3 := (pick_apply (tot o) 3 (by decide) slices_S4_S1_3 ix0).trans (tot_apply o 3)
  show Ideal.div ((-(w1 - Ideal.div (pick (tot o) 0 slices_S4_S1_0 ix0) wN)) * pick (tot o) 1 slices_S4_S1_1 ix0
        - (w1 - (w1 - Ideal.div (pick (tot o) 0 slices_S4_S1_0 ix0) wN)) * pick (tot o) 2 slices_S4_S1_2 ix0) w128
      + Ideal.div (Ideal.div (pick (tot o) 3 slices_S4_S1_3 ix0) w8) wN * w1 = _
  rw [e0, e1, e2, e3]
  rfl

end Cert.KernelIdeal.KTail

end
-- ==== Proof.KernelRun.lean ====
import proofs.«104741_j61151744360901_2_alg».proof.Proof.KernelTotals
import proofs.«104741_j61151744360901_2_alg».proof.Proof.KernelTail
import Idealize.ShloMosaic.Lib.Pipeline.FrameSuffix

noncomputable section

open Idealize.ShloMosaic Idealize.ShloMosaic.TcCoe Idealize.SL.Sem
open Idealize.ShloMosaic.Pipeline (Dat)
open Idealize.ShloMosaic.ValueIdx

namespace Cert.KernelIdeal.KValue

open Cert.KernelIdeal Cert.KernelIdeal.Gen Cert.LossSums Cert.LossSpec

variable (m : (ℓ : Loc nD τ sig) → Buf (Elt Ideal) ℓ) (ρ : Dev nD → PrngReg)

/-- The host operations after the region, applied to the partial-sum array, give the loss of the four totals. -/
theorem tail_out (c : Dev nD) :
    KTail.tail (outArr m c) = fun _ => loss (∑ e, gS m c e) (∑ e, gA m c e) (∑ e, gB m c e) (∑ e, gG m c e) := by
  funext i
  rw [eq_ix0 i, KTail.tail_apply]
  unfold KTail.rowTotal
  rw [row_total_0, row_total_1, row_total_2, row_total_3]

/-- The program's result buffer is no array of the region and is not scoped: the run's post states it. -/
theorem result_mem : main_v21 ∈ Pipeline.restRefs sig (cfgs 0).spec :=
  Pipeline.mem_restRefs_of main_v21 rfl (fun w => by fin_cases w <;> decide)

/-- What the lines after the region leave in the result buffer. -/
theorem after_tail (c : Dev nD) :
    Pipeline.afterTail₀ cfgs (dats m) 0 (V0 m) [hostOps1] c main_v21 = KTail.tail (outArr m c) := by
  unfold Pipeline.afterTail₀
  show StableHlo.after hostOps1 _ (Proc.devRef .tc main_v21) = _
  rw [KTail.tail_after]
  exact congrArg KTail.tail ((Pipeline.withArrays_arr spec0 launch0.win.arr_inj c _ _ 4).trans (final_out m c))

/-- The idealized kernel program's run: the result is the loss of the four totals of the argument arrays, which end
    unchanged. -/
theorem run_loss : θ_run defs (onTc (τ := τ) (main (F := Ideal))) ⟨m, fun _ => 0, ρ⟩ fun r => ∀ c : Dev nD,
      r.2.mem ((c.tc : Thread nD τ).loc main_v21) = (fun _ => loss (∑ e, gS m c e) (∑ e, gA m c e) (∑ e, gB m c e) (∑ e, gG m c e))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(((h c).2 main_v21 result_mem).trans (after_tail m c)).trans (tail_out m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KValue

end
-- ==== Proof.ScoreAlgebra.lean ====
/-
  The algebra of the score, on extended reals over an abstract finite index set. When every entry of y is a real
  number and every entry of p is a real strictly between 0 and 1, the logarithms log p and log (1 - p) are real
  numbers, every term of the two sums is real, and the identity

    (-β) · Σ y · log p  -  (1 - β) · Σ (1 - y) · log1p (0 - p)  =  Σ ( (-β) · y · log p + (-(1 - β)) · (1 - y) · log (1 - p) )

  is the distributivity of a real factor over a finite sum of reals (log1p x = log (1 + x), and 1 + (0 - p) = 1 - p).
  Beside it: a finite sum of reals is real, and 1 - S / 2^21 is real when S is (the patterns 0x3F800000, 0x00000000
  and 0x4A000000 denote 1, 0 and 2^21 = 2097152).
-/
import Idealize.ShloMosaic.PureOps.Ideal.Laws

noncomputable section

open scoped BigOperators

namespace Cert.LossAlgebra

open Idealize.ShloMosaic

/-- The pattern 0x3F800000 denotes 1. -/
theorem ofBits_one : Ideal.ofBits .f32 0x3F800000#32 = (1 : EReal) := IdealRules.sign_bit.ideal_onePat .f32

/-- The pattern 0x4A000000 denotes 2^21 = 2097152. -/
theorem ofBits_two_pow_21 : Ideal.ofBits .f32 0x4A000000#32 = ((2097152 : ℝ) : EReal) := by
  simp [Ideal.ofBits, Ideal.ieee, -EReal.coe_mul] <;> norm_num

/-- A finite sum of coercions of reals is the coercion of the sum. -/
theorem coe_sum {ι : Type} (s : Finset ι) (f : ι → ℝ) : ∑ e ∈ s, ((f e : ℝ) : EReal) = ((∑ e ∈ s, f e : ℝ) : EReal) := by
  classical
  refine Finset.induction_on s (by simp) ?_
  intro a s ha ih
  rw [Finset.sum_insert ha, Finset.sum_insert ha, ih, EReal.coe_add]

/-- A finite sum of real numbers is a real number. -/
theorem sum_real {ι : Type} [Fintype ι] (y : ι → EReal) (hy : ∀ e, ∃ r : ℝ, y e = (r : EReal)) : ∃ s : ℝ, ∑ e, y e = (s : EReal) := by
  choose r hr using hy
  refine ⟨∑ e, r e, ?_⟩
  simp only [hr]
  exact coe_sum _ _

/-- 1 - S / 2^21 is a real number when S is. -/
theorem beta_real (S : EReal) (hS : ∃ s : ℝ, S = (s : EReal)) :
    ∃ b : ℝ, Ideal.ofBits .f32 0x3F800000#32 - Ideal.div S (Ideal.ofBits .f32 0x4A000000#32) = (b : EReal) := by
  obtain ⟨s, rfl⟩ := hS
  refine ⟨1 - s * (1 / 2097152), ?_⟩
  rw [ofBits_one, ofBits_two_pow_21, Ideal.div_coe (by norm_num), EReal.coe_sub, EReal.coe_mul, EReal.coe_one]

/-- THE SCORE'S ALGEBRA: the real factors -β and -(1 - β) distribute over the two finite sums of reals. -/
theorem score_eq {ι : Type} [Fintype ι] (y p : ι → EReal)
    (hy : ∀ e, ∃ r : ℝ, y e = (r : EReal)) (hp : ∀ e, ∃ r : ℝ, p e = (r : EReal) ∧ 0 < r ∧ r < 1)
    (β : EReal) (hβ : ∃ b : ℝ, β = (b : EReal)) :
    (-β) * (∑ e, y e * Ideal.log (p e))
        - (Ideal.ofBits .f32 0x3F800000#32 - β) * (∑ e, (Ideal.ofBits .f32 0x3F800000#32 - y e) * Ideal.log1p (Ideal.ofBits .f32 0x00000000#32 - p e))
      = ∑ e, (((-β) * y e) * Ideal.log (p e)
              + ((-(Ideal.ofBits .f32 0x3F800000#32 - β)) * (Ideal.ofBits .f32 0x3F800000#32 - y e)) * Ideal.log (Ideal.ofBits .f32 0x3F800000#32 - p e)) := by
  obtain ⟨b, rfl⟩ := hβ
  choose ry hry using hy
  choose rp hrp using hp
  have h1 : Ideal.ofBits .f32 0x3F800000#32 = ((1 : ℝ) : EReal) := by rw [ofBits_one, EReal.coe_one]
  have h0 : Ideal.ofBits .f32 0x00000000#32 = ((0 : ℝ) : EReal) := by rw [Ideal.ofBits_zero_f32, EReal.coe_zero]
  -- log p is the real logarithm, p being positive
  have hlog : ∀ e, Ideal.log (p e) = ((Real.log (rp e) : ℝ) : EReal) := fun e => by
    rw [(hrp e).1, Ideal.log_coe, if_neg (not_le.2 (hrp e).2.1)]
  -- log (1 - p) is the real logarithm, p being below 1
  have hlog' : ∀ e, Ideal.log (((1 : ℝ) : EReal) - p e) = ((Real.log (1 - rp e) : ℝ) : EReal) := fun e => by
    rw [(hrp e).1, ← EReal.coe_sub, Ideal.log_coe, if_neg (not_le.2 (sub_pos.2 (hrp e).2.2))]
  -- log1p (0 - p) = log (1 + (0 - p)) = log (1 - p)
  have hlog1p : ∀ e, Ideal.log1p (((0 : ℝ) : EReal) - p e) = ((Real.log (1 - rp e) : ℝ) : EReal) := fun e => by
    unfold Ideal.log1p
    rw [(hrp e).1, ← EReal.coe_sub, ← EReal.coe_one, ← EReal.coe_add, show (1 : ℝ) + (0 - rp e) = 1 - rp e by ring,
      Ideal.log_coe, if_neg (not_le.2 (sub_pos.2 (hrp e).2.2))]
  rw [h1, h0]
  simp only [hry, hlog, hlog', hlog1p]
  simp only [← EReal.coe_neg, ← EReal.coe_sub, ← EReal.coe_mul, ← EReal.coe_add, coe_sum]
  rw [EReal.coe_eq_coe_iff, Finset.mul_sum, Finset.mul_sum, ← Finset.sum_sub_distrib]
  exact Finset.sum_congr rfl fun e _ => by ring

end Cert.LossAlgebra

end
-- ==== Proof.RefValue.lean ====
/-
  The reference, read at its one index, on the extended reals. The generated module `Read` gives the value each
  operation of the reference writes, one operation at a time. Chained together at the scalar result's index:

    β = 1 - (Σ y) / N                                   (the scalar operations 0 – 3, 8, 9)
    score term at e = ((-β) · y e) · log (p e) + ((-(1 - β)) · (1 - y e)) · log (1 - p e)      (operations 4 – 18)
    geometry term at g = huber (a g) (b g)              (operations 21 – 30)
    result = (Σ score terms) / 128 + (((Σ geometry terms) / 8) / N) · 1                       (operations 19, 20, 31 – 35)

  (each host sum starts from the constant 0, and 0 + s = s). Then, when every y is real and every p is a real strictly
  between 0 and 1, the sum of the score terms is (-β) · Σ y · log p - (1 - β) · Σ (1 - y) · log1p (0 - p) by the
  distributivity of real factors over finite real sums, and the result is the loss of the four totals.
-/
import proofs.«104741_j61151744360901_2_alg».proof.Proof.Gen.ReferenceIdeal.Read
import proofs.«104741_j61151744360901_2_alg».proof.Proof.LossSpec
import proofs.«104741_j61151744360901_2_alg».proof.Proof.ScoreAlgebra
import Idealize.ShloMosaic.Lib.ValueIdx
import Idealize.ShloMosaic.PureOps.Ideal.Laws

noncomputable section

open scoped BigOperators

namespace Cert.ReferenceIdeal.RefValue

open Idealize.ShloMosaic
open Cert.ReferenceIdeal Cert.ReferenceIdeal.Read
open Cert.LossSpec
open Idealize.ShloMosaic.ValueIdx (ix0)

/-- Operation 0: the total of y (the host sum starts from 0). -/
theorem v0_eq (x0 : FVec Ideal S128x1x128x128 .f32) (i : S_.Idx) : val_main_v0 (F := Ideal) x0 i = ∑ e, x0 e := by
  rw [val_main_v0_apply, val_main_cst_apply, Ideal.ofBits_def, Ideal.ofBits_zero_f32, zero_add]

/-- Operation 2: β = 1 - (Σ y) / N. -/
theorem v2_eq (x0 : FVec Ideal S128x1x128x128 .f32) (i : S_.Idx) :
    val_main_v2 (F := Ideal) x0 i = w1 - Ideal.div (∑ e, x0 e) wN := by
  rw [val_main_v2_apply, val_main_v1_apply, v0_eq]
  rfl

/-- Operation 3: -β. -/
theorem v3_eq (x0 : FVec Ideal S128x1x128x128 .f32) (i : S_.Idx) :
    val_main_v3 (F := Ideal) x0 i = -(w1 - Ideal.div (∑ e, x0 e) wN) := by
  rw [val_main_v3_apply, v2_eq]
  rfl

/-- Operation 9: -(1 - β). -/
theorem v9_eq (x0 : FVec Ideal S128x1x128x128 .f32) (i : S_.Idx) :
    val_main_v9 (F := Ideal) x0 i = -(w1 - (w1 - Ideal.div (∑ e, x0 e) wN)) := by
  rw [val_main_v9_apply, val_main_v8_apply, v2_eq]
  rfl

/-- Operation 18 at an index: the score term there. -/
theorem v18_eq (x0 x1 : FVec Ideal S128x1x128x128 .f32) (e : S128x1x128x128.Idx) :
    val_main_v18 (F := Ideal) x0 x1 e
      = ((-(w1 - Ideal.div (∑ e', x0 e') wN)) * x0 e) * Ideal.log (x1 e)
        + ((-(w1 - (w1 - Ideal.div (∑ e', x0 e') wN))) * (w1 - x0 e)) * Ideal.log (w1 - x1 e) := by
  rw [val_main_v18_apply, val_main_v7_apply, val_main_v5_apply, val_main_v4_apply, v3_eq, val_main_v6_apply,
    val_main_v17_apply, val_main_v13_apply, val_main_v12_apply, v9_eq, val_main_v11_apply, val_main_v10_apply,
    val_main_v16_apply, val_main_v15_apply, val_main_v14_apply]
  rfl

/-- Operation 30 at an index: the smoothed L1 distance of the pair there. -/
theorem v30_eq (x2 x3 : FVec Ideal S128x8x128x128 .f32) (g : S128x8x128x128.Idx) :
    val_main_v30 (F := Ideal) x2 x3 g = huber (x2 g) (x3 g) := by
  rw [val_main_v30_apply, val_main_v24_apply, val_main_v27_apply, val_main_v26_apply, val_main_v29_apply,
    val_main_v23_apply, val_main_v25_apply, val_main_v28_apply]
  rfl

/-- THE REFERENCE'S VALUE at its one index. -/
theorem ref_value (x0 x1 : FVec Ideal Cert.ReferenceIdeal.S128x1x128x128 .f32) (x2 x3 : FVec Ideal Cert.ReferenceIdeal.S128x8x128x128 .f32) :
    Cert.ReferenceIdeal.Read.val_main_v35 (F := Ideal) x0 x1 x2 x3 ix0
      = Ideal.div (∑ e, (((-(w1 - Ideal.div (∑ e', x0 e') wN)) * x0 e) * Ideal.log (x1 e)
                      + ((-(w1 - (w1 - Ideal.div (∑ e', x0 e') wN))) * (w1 - x0 e)) * Ideal.log (w1 - x1 e))) w128
        + (Ideal.div (Ideal.div (∑ g, huber (x2 g) (x3 g)) w8) wN) * w1 := by
  rw [val_main_v35_apply, val_main_v20_apply, val_main_v19_apply, val_main_v34_apply, val_main_v33_apply,
    val_main_v32_apply, val_main_v31_apply]
  simp only [v18_eq, v30_eq]
  rw [val_main_cst_5_apply, val_main_cst_10_apply, Ideal.ofBits_def, Ideal.ofBits_zero_f32, zero_add, zero_add]
  rfl

/-- THE REFERENCE IS THE LOSS of the four totals, when every y is real and every p a real strictly between 0 and 1. -/
theorem ref_eq_loss (x0 x1 : FVec Ideal Cert.ReferenceIdeal.S128x1x128x128 .f32) (x2 x3 : FVec Ideal Cert.ReferenceIdeal.S128x8x128x128 .f32)
    (hy : ∀ e, ∃ r : ℝ, x0 e = (r : EReal)) (hp : ∀ e, ∃ r : ℝ, x1 e = (r : EReal) ∧ 0 < r ∧ r < 1) :
    Cert.ReferenceIdeal.Read.val_main_v35 (F := Ideal) x0 x1 x2 x3 ix0
      = loss (∑ e, x0 e) (∑ e, x0 e * Ideal.log (x1 e)) (∑ e, (w1 - x0 e) * Ideal.log1p (w0 - x1 e)) (∑ g, huber (x2 g) (x3 g)) := by
  have hβ := Cert.LossAlgebra.beta_real _ (Cert.LossAlgebra.sum_real x0 hy)
  have key := Cert.LossAlgebra.score_eq x0 x1 hy hp (w1 - Ideal.div (∑ e', x0 e') wN) hβ
  rw [ref_value, ← key]
  rfl

end Cert.ReferenceIdeal.RefValue

end
-- ==== Proof.Domain.lean ====
/-
  The precondition `finite_inputs`, decoded. The generated module `Pre_finite_inputs` prints the predicate as a
  pure function into a one-bit scalar: the conjunction of six reductions by `and` over every axis, of the
  elementwise tests |arg0| < +∞, |arg1| < +∞, |arg2| < +∞, |arg3| < +∞, arg1 > 0 and arg1 < 1. Read at the
  extended reals, the predicate being 1 says: every entry of the four arrays is a real number, and every entry
  of arg1 lies strictly between 0 and 1.

  The steps: a conjunction of one-bit words is 1 exactly when both are; a reduction by `and` over all axes that
  is 1 had a 1 at every index; |x| = max x (-x) is below +∞ exactly when x is neither infinity; the patterns
  0x7F800000, 0x00000000 and 0x3F800000 denote +∞, 0 and 1.
-/
import proofs.«104741_j61151744360901_2_alg».proof.Pre_finite_inputs
import Idealize.ShloMosaic.PureOps.Ideal.Laws
import Idealize.ShloMosaic.Lib.ValueIdx
import Idealize.ShloMosaic.Lib.ReduceAll

noncomputable section

namespace Cert.LossDomain

open Idealize.ShloMosaic
open Cert.Pre_finite_inputs

/-- The scalar shape has one index. -/
instance : Subsingleton S_.Idx := ⟨fun a b => funext fun d => d.elim0⟩

/-- A one-bit word made from a boolean is 1 exactly when the boolean is true. -/
theorem ofBool_eq_one (b : Bool) : BitVec.ofBool b = 1#1 ↔ b = true := by cases b <;> decide

/-- The pattern 0x7F800000 denotes +∞. -/
theorem ofBits_inf : Ideal.ofBits .f32 0x7F800000#32 = (⊤ : EReal) := by simp [Ideal.ofBits, Ideal.ieee]

/-- The pattern 0x3F800000 denotes 1. -/
theorem ofBits_one : Ideal.ofBits .f32 0x3F800000#32 = (1 : EReal) := IdealRules.sign_bit.ideal_onePat .f32

/-- An extended real whose absolute value max x (-x) is below +∞ is a real number. -/
theorem real_of_abs_lt_top (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- The elementwise test |a| < +∞, being 1 at an index, says the entry there is a real number. -/
theorem elem_real {s : Shape} (bc : S_.BroadcastsInDim s (![] : Fin 0 → Fin s.rank)) (a : FVec Ideal s .f32) (i : s.Idx)
    (h : cmpf .olt (Host.absf a) (broadcastInDim s ![] bc (constant (F := Ideal) S_ .f32 0x7F800000#32)) i = 1#1) :
    ∃ r : ℝ, a i = (r : EReal) := by
  apply real_of_abs_lt_top
  rw [← ofBits_inf]
  exact h

/-- The elementwise test a > 0, being 1 at an index, says the entry there is above 0. -/
theorem elem_pos {s : Shape} (bc : S_.BroadcastsInDim s (![] : Fin 0 → Fin s.rank)) (a : FVec Ideal s .f32) (i : s.Idx)
    (h : cmpf .ogt a (broadcastInDim s ![] bc (constant (F := Ideal) S_ .f32 0x00000000#32)) i = 1#1) :
    (0 : EReal) < a i := by
  have h' : Ideal.cmp .ogt (a i) (Ideal.ofBits .f32 0x00000000#32) = 1#1 := h
  rw [Ideal.ofBits_zero_f32] at h'
  simpa [Ideal.cmp, ofBool_eq_one] using h'

/-- The elementwise test a < 1, being 1 at an index, says the entry there is below 1. -/
theorem elem_lt_one {s : Shape} (bc : S_.BroadcastsInDim s (![] : Fin 0 → Fin s.rank)) (a : FVec Ideal s .f32) (i : s.Idx)
    (h : cmpf .olt a (broadcastInDim s ![] bc (constant (F := Ideal) S_ .f32 0x3F800000#32)) i = 1#1) :
    a i < (1 : EReal) := by
  have h' : Ideal.cmp .olt (a i) (Ideal.ofBits .f32 0x3F800000#32) = 1#1 := h
  rw [ofBits_one] at h'
  simpa [Ideal.cmp, ofBool_eq_one] using h'

/-- THE PRECONDITION DECODED: every entry of the four arrays is a real number, and every entry of the second array
    lies strictly between 0 and 1. -/
theorem of_pre [Cert.Pre_finite_inputs.Facts]
    (a0 a1 : FVec Ideal Cert.Pre_finite_inputs.S128x1x128x128 .f32) (a2 a3 : FVec Ideal Cert.Pre_finite_inputs.S128x8x128x128 .f32)
    (h : Cert.Pre_finite_inputs.fn (F := Ideal) a0 a1 a2 a3 = fun _ => 1#1) :
    (∀ i, ∃ r : ℝ, a0 i = (r : EReal)) ∧ (∀ i, ∃ r : ℝ, a1 i = (r : EReal) ∧ 0 < r ∧ r < 1)
      ∧ (∀ i, ∃ r : ℝ, a2 i = (r : EReal)) ∧ (∀ i, ∃ r : ℝ, a3 i = (r : EReal)) := by
  have e := congrFun h ValueIdx.ix0
  dsimp only [Cert.Pre_finite_inputs.fn, Cert.Pre_finite_inputs.fn_part1, andi] at e
  simp only [IntOp.andi_eq_one] at e
  obtain ⟨⟨⟨⟨⟨h0, h1⟩, h2⟩, h3⟩, hpos⟩, hlt⟩ := e
  refine ⟨fun i => ?_, fun i => ?_, fun i => ?_, fun i => ?_⟩
  · exact elem_real _ a0 i (Host.reduce_andi_all _ _ _ _ _ h0 i)
  · obtain ⟨r, hr⟩ := elem_real _ a1 i (Host.reduce_andi_all _ _ _ _ _ h1 i)
    have hp := elem_pos _ a1 i (Host.reduce_andi_all _ _ _ _ _ hpos i)
    have hl := elem_lt_one _ a1 i (Host.reduce_andi_all _ _ _ _ _ hlt i)
    rw [hr] at hp hl
    exact ⟨r, hr, by exact_mod_cast hp, by exact_mod_cast hl⟩
  · exact elem_real _ a2 i (Host.reduce_andi_all _ _ _ _ _ h2 i)
  · exact elem_real _ a3 i (Host.reduce_andi_all _ _ _ _ _ h3 i)

end Cert.LossDomain

end
-- ==== Proof.lean ====
/- The proof of `Cert.Claim`. The kernel computes a detection loss from true scores y and predicted scores p over
   [128, 1, 128, 128] and true and predicted geometries a, b over [128, 8, 128, 128]: with S = Σ y, A = Σ y · log p,
   B = Σ (1 - y) · log1p (0 - p), G = Σ huber (a, b) and β = 1 - S / 2^21, the loss is
   ((-β) · A - (1 - β) · B) / 128 + ((G / 8) / 2^21) · 1. Read at the extended reals, the kernel's grid accumulates the
   four totals block by block and its host operations combine them into that loss; the reference distributes -β and
   -(1 - β) over the entries before summing. Under the precondition (every entry real, every p strictly between 0
   and 1) all the logarithms are real numbers, so the reference's sum is the same combination of the four totals by
   the distributivity of real factors over finite sums of reals: the two results are equal. The three programs run
   and leave their arguments unchanged; the kernel's idealization is its own text read at the extended reals. -/
import proofs.«104741_j61151744360901_2_alg».proof.Defs
import proofs.«104741_j61151744360901_2_alg».proof.Proof.Gen.Kernel
import proofs.«104741_j61151744360901_2_alg».proof.Proof.Gen.Kernel.Frame
import proofs.«104741_j61151744360901_2_alg».proof.Proof.Gen.KernelIdeal
import proofs.«104741_j61151744360901_2_alg».proof.Proof.Gen.KernelIdeal.Frame
import proofs.«104741_j61151744360901_2_alg».proof.Proof.Gen.ReferenceIdeal
import proofs.«104741_j61151744360901_2_alg».proof.Proof.Gen.ReferenceIdeal.Run
import proofs.«104741_j61151744360901_2_alg».proof.Proof.Gen.ReferenceIdeal.Read
import proofs.«104741_j61151744360901_2_alg».proof.Proof.Gen.Pre_finite_inputs
import proofs.«104741_j61151744360901_2_alg».proof.Proof.KernelRun
import proofs.«104741_j61151744360901_2_alg».proof.Proof.RefValue
import proofs.«104741_j61151744360901_2_alg».proof.Proof.Domain
import Idealize.ShloMosaic.Adequacy
import Idealize.ShloMosaic.Init

noncomputable section

open scoped BigOperators

namespace Cert.Proof

open Idealize.ShloMosaic Idealize.SL.Sem
open Cert.LossSpec Cert.KernelIdeal.KValue

/-- Each program runs and leaves its arguments unchanged. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the extended reals the kernel's result is the loss of the four totals of its arguments, and so is the
    reference's, of arguments that agree: under the precondition every entry is real and every predicted score lies
    strictly between 0 and 1, and there the reference's sum of weighted entries is the weighted combination of the totals. -/
theorem algebraic : Cert.algebraic_KernelIdeal_ReferenceIdeal := by
  intro m ρ m' ρ' hpre hagree
  refine ⟨fun c => fun _ => loss (∑ e, gS m c e) (∑ e, gA m c e) (∑ e, gB m c e) (∑ e, gG m c e),
    Cert.KernelIdeal.KValue.run_loss m ρ, ?_⟩
  refine (θ_run Cert.ReferenceIdeal.defs _ _).mono (fun _ h c => ⟨(h c).1.trans ?_, (h c).2⟩)
    (Cert.ReferenceIdeal.Value.run (F := Ideal) m' ρ')
  obtain ⟨hy, hp, -, -⟩ := Cert.LossDomain.of_pre _ _ _ _ (hpre c)
  refine (Cert.ReferenceIdeal.Read.val_main_v35_eq (F := Ideal) _ _ _ _).trans ?_
  rw [(hagree c).1, (hagree c).2.1, (hagree c).2.2.1, (hagree c).2.2.2]
  funext i
  obtain rfl := Idealize.ShloMosaic.ValueIdx.eq_ix0 i
  exact Cert.ReferenceIdeal.RefValue.ref_eq_loss _ _ _ _ hy hp

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
